-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x1 : Shape := ⟨2, ![2000, 1]⟩
abbrev S2000x128 : Shape := ⟨2, ![2000, 128]⟩
abbrev S800000x128 : Shape := ⟨2, ![800000, 128]⟩
abbrev S1x64 : Shape := ⟨2, ![1, 64]⟩

abbrev nBuf : Space → Nat
  | .hbm => 49
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S1x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x64, .f32⟩
  | .hbm, ⟨48, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .bf16⟩
  | .local _ .vmem, ⟨16, _⟩ => ⟨S2000x128, .bf16⟩
  | .local _ .vmem, ⟨17, _⟩ => ⟨S128x64, .f32⟩
  | .local _ .vmem, ⟨18, _⟩ => ⟨S1x64, .f32⟩
  | .local _ .vmem, ⟨19, _⟩ => ⟨S128x64, .f32⟩
  | .local _ .vmem, ⟨20, _⟩ => ⟨S2000x64, .f32⟩
  | .local _ .vmem, ⟨21, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S64_S1x64 : S64.ShapeCasts S1x64
  shapeCasts_S2000x128_S2000x128 : S2000x128.ShapeCasts S2000x128
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  @main is four segments: a stretch of host operations (the two edge rows, the first layer's neighbour sums and the
  in-degree), the first layer's kernel over 25 blocks of 2000 rows, a second stretch (the second layer's neighbour
  sums of the hidden rows) and the second layer's kernel. Every weakly fair execution terminates, and each unscoped
  buffer then holds what the fold of those four segments over the launch memory gives it: in particular the result
  buffer holds the second kernel's output array after its 25 write-backs, and the eight arguments are as launched.
-/
import proofs.«178976_j72060961292398_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents (the
    second kernel's output array after all its write-backs) and the arguments as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Result

end
-- ==== Proof.HostStretch.lean ====
/-
  The host operations around the two kernels, as functions of the arrays they read.

  Before the first kernel the host cuts the edge list into its source row and its destination row, wraps negative
  source numbers round (a number below 0 has 50000 added), gathers the source nodes' feature rows, adds each gathered
  row into its destination node's row of a zero table (`agg64`), counts the incoming edges of every node the same way
  (`degree`: a one is added per edge), and lays the first bias out as a row. Between the kernels it does the same
  gather and accumulation on the hidden rows the first kernel left (`agg128`; the rows are widened on the way, which
  changes nothing on the extended reals) and lays the second bias out as a row. Each buffer after a stretch is such a
  function of the buffers before it; every other buffer is untouched.
-/
import proofs.«178976_j72060961292398_2_alg».proof.Proof.Gen.KernelIdeal.Launch
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Row `r` (0: sources, 1: destinations) of the edge list as a vector of 800000 words. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Node numbers as a column of gather indices, a negative number wrapped round by adding 50000. -/
def wrapped (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- Node numbers as a column of scatter indices. -/
def column (d : (⟨S800000, .i32⟩ : BufTy).Contents (Elt F)) : (⟨S800000x1, .i32⟩ : BufTy).Contents (Elt F) :=
  broadcastInDim S800000x1 ![0] bcast_S800000_S800000x1_0 d

/-- The neighbours' rows of a 64-column table summed into each destination node's row. -/
def agg64 (s d : (⟨S800000, .i32⟩ : BufTy).Contents (Elt F)) (x : (⟨S50000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (column d)
    (Host.gather gather_S50000x64_S800000x1_S800000x64_1_0_n_n_0_1_164 x (wrapped s))
/-- The number of incoming edges of every node, as a column. -/
def degree (d : (⟨S800000, .i32⟩ : BufTy).Contents (Elt F)) : (⟨S50000x1, .f32⟩ : BufTy).Contents (Elt F) :=
  Host.scatterAdd scatter_S50000x1_S800000x1_S800000x1_1_0_0_1
    (broadcastInDim S50000x1 ![] bcast_S_S50000x1 (constant S_ .f32 0x00000000#32)) (column d)
    (broadcastInDim S800000x1 ![] bcast_S_S800000x1 (constant S_ .f32 0x3F800000#32))
/-- The neighbours' rows of the 128-column hidden table, widened, summed into each destination node's row. -/
def agg128 (s d : (⟨S800000, .i32⟩ : BufTy).Contents (Elt F)) (h : (⟨S50000x128, .bf16⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (column d)
    (extf .f32 (Host.gather gather_S50000x128_S800000x1_S800000x128_1_0_n_n_0_1_1128 h (wrapped s)) bitsLt_bf16_f32)

variable (Vv : Valuation τ sig (Elt F))

/-! ## After the first stretch -/

theorem first_v1 : StableHlo.after hostOps0 Vv (Proc.devRef .tc main_v1) = srcRow (Vv (Proc.devRef .tc main_arg1)) := by
  after_results; rfl
theorem first_v3 : StableHlo.after hostOps0 Vv (Proc.devRef .tc main_v3) = dstRow (Vv (Proc.devRef .tc main_arg1)) := by
  after_results; rfl
theorem first_v13 : StableHlo.after hostOps0 Vv (Proc.devRef .tc main_v13)
    = agg64 (srcRow (Vv (Proc.devRef .tc main_arg1))) (dstRow (Vv (Proc.devRef .tc main_arg1))) (Vv (Proc.devRef .tc main_arg0)) := by
  after_results; rfl
theorem first_v17 : StableHlo.after hostOps0 Vv (Proc.devRef .tc main_v17) = degree (dstRow (Vv (Proc.devRef .tc main_arg1))) := by
  after_results; rfl
theorem first_v18 : StableHlo.after hostOps0 Vv (Proc.devRef .tc main_v18)
    = shapeCast _ (Vv (Proc.devRef .tc main_arg3)) shapeCasts_S128_S1x128 := by
  after_results; rfl
theorem first_arg0 : StableHlo.after hostOps0 Vv (Proc.devRef .tc main_arg0) = Vv (Proc.devRef .tc main_arg0) := by
  after_results
theorem first_arg2 : StableHlo.after hostOps0 Vv (Proc.devRef .tc main_arg2) = Vv (Proc.devRef .tc main_arg2) := by
  after_results
theorem first_arg4 : StableHlo.after hostOps0 Vv (Proc.devRef .tc main_arg4) = Vv (Proc.devRef .tc main_arg4) := by
  after_results
theorem first_arg5 : StableHlo.after hostOps0 Vv (Proc.devRef .tc main_arg5) = Vv (Proc.devRef .tc main_arg5) := by
  after_results
theorem first_arg6 : StableHlo.after hostOps0 Vv (Proc.devRef .tc main_arg6) = Vv (Proc.devRef .tc main_arg6) := by
  after_results
theorem first_arg7 : StableHlo.after hostOps0 Vv (Proc.devRef .tc main_arg7) = Vv (Proc.devRef .tc main_arg7) := by
  after_results

/-! ## After the second stretch -/

theorem second_v30 : StableHlo.after hostOps1 Vv (Proc.devRef .tc main_v30)
    = agg128 (Vv (Proc.devRef .tc main_v1)) (Vv (Proc.devRef .tc main_v3)) (Vv (Proc.devRef .tc main_v19)) := by
  after_results; rfl
theorem second_v31 : StableHlo.after hostOps1 Vv (Proc.devRef .tc main_v31)
    = shapeCast _ (Vv (Proc.devRef .tc main_arg6)) shapeCasts_S64_S1x64 := by
  after_results; rfl
theorem second_v17 : StableHlo.after hostOps1 Vv (Proc.devRef .tc main_v17) = Vv (Proc.devRef .tc main_v17) := by
  after_results
theorem second_v19 : StableHlo.after hostOps1 Vv (Proc.devRef .tc main_v19) = Vv (Proc.devRef .tc main_v19) := by
  after_results
theorem second_arg5 : StableHlo.after hostOps1 Vv (Proc.devRef .tc main_arg5) = Vv (Proc.devRef .tc main_arg5) := by
  after_results
theorem second_arg7 : StableHlo.after hostOps1 Vv (Proc.devRef .tc main_arg7) = Vv (Proc.devRef .tc main_arg7) := by
  after_results

end Cert.KernelIdeal.HostSide

end
-- ==== Proof.Layer.lean ====
/-
  One mean-aggregation layer of a graph network, entry by entry, on the extended reals.

  For a node `p` and an output feature `q` the layer is

      (∑ₖ (A p k / max (deg p) 1) · Wl k q  +  ∑ₖ X p k · Wr k q)  +  b q

  where `A p` is the sum of the neighbours' feature rows, `deg p` the number of incoming edges, `X p` the node's own
  row, `Wl`, `Wr` the two weight matrices and `b` the bias. The arrays are taken as functions of coordinates, so the
  same definition serves a whole array and a block of its rows. The words of 1.0 and 0.0 are kept as words: the same
  word stands on both sides of every equation below and is never evaluated.

  Addition on the extended reals is commutative and associative, so adding the bias before or after the second
  product gives the same entry (`bias_first`); and an entry reads only row `p` of `A`, `deg`, `X` and column `q` of
  the weights and bias (`lin_congr`), which is what lets a block of rows be computed by itself.
-/
import Idealize.ShloMosaic.PureOps.Ideal
import Idealize.ShloMosaic.Lib.ValueIdx

noncomputable section

open scoped BigOperators

namespace Cert.Sage

open Idealize.ShloMosaic

/-- The f32 word of 1.0 as an extended real. -/
abbrev one : EReal := Ideal.ofBits .f32 0x3F800000#32
/-- The f32 word of 0.0 as an extended real. -/
abbrev zero : EReal := Ideal.ofBits .f32 0x00000000#32

variable {N N' K C : Nat}

/-- Entry `(p, q)` of a layer: the mean of the neighbours' rows times `Wl`, plus the node's own row times `Wr`, plus the
    bias. -/
def lin (A : Fin N → Fin K → EReal) (deg : Fin N → EReal) (X : Fin N → Fin K → EReal)
    (Wl Wr : Fin K → Fin C → EReal) (b : Fin C → EReal) (p : Fin N) (q : Fin C) : EReal :=
  (∑ k : Fin K, Ideal.div (A p k) (max (deg p) one) * Wl k q + ∑ k : Fin K, X p k * Wr k q) + b q

/-- The same entry with the bias added before the second product. -/
theorem bias_first (A : Fin N → Fin K → EReal) (deg : Fin N → EReal) (X : Fin N → Fin K → EReal)
    (Wl Wr : Fin K → Fin C → EReal) (b : Fin C → EReal) (p : Fin N) (q : Fin C) :
    (∑ k : Fin K, Ideal.div (A p k) (max (deg p) one) * Wl k q + b q) + ∑ k : Fin K, X p k * Wr k q
      = lin A deg X Wl Wr b p q :=
  add_right_comm _ _ _

/-- An entry depends on row `p` of the three node arrays only: two families of arrays that agree on that row (row `p`
    of the first being row `p'` of the second) give the same entry. -/
theorem lin_congr {A : Fin N → Fin K → EReal} {deg : Fin N → EReal} {X : Fin N → Fin K → EReal}
    {A' : Fin N' → Fin K → EReal} {deg' : Fin N' → EReal} {X' : Fin N' → Fin K → EReal}
    (Wl Wr : Fin K → Fin C → EReal) (b : Fin C → EReal) {p : Fin N} {p' : Fin N'} (q : Fin C)
    (hA : ∀ k, A p k = A' p' k) (hd : deg p = deg' p') (hX : ∀ k, X p k = X' p' k) :
    lin A deg X Wl Wr b p q = lin A' deg' X' Wl Wr b p' q := by
  unfold lin
  rw [hd]
  simp only [hA, hX]

/-! ## A layer on whole arrays -/

/-- The layer's result array from the arrays of neighbour sums `A`, degrees `deg` (a column), own rows `X`, weights
    and the bias (a function of the column). -/
def layerArr (A : (⟨2, ![N, K]⟩ : Shape).Idx → EReal) (deg : (⟨2, ![N, 1]⟩ : Shape).Idx → EReal)
    (X : (⟨2, ![N, K]⟩ : Shape).Idx → EReal) (Wl Wr : (⟨2, ![K, C]⟩ : Shape).Idx → EReal) (b : Fin C → EReal) :
    (⟨2, ![N, C]⟩ : Shape).Idx → EReal :=
  fun i => lin (fun p k => A (ValueIdx.ix2 p k)) (fun p => deg (ValueIdx.ix2 p (0 : Fin 1))) (fun p k => X (ValueIdx.ix2 p k))
    (fun k q => Wl (ValueIdx.ix2 k q)) (fun k q => Wr (ValueIdx.ix2 k q)) b
    ⟨(i 0).val, ValueIdx.idx2_lt0 i⟩ ⟨(i 1).val, ValueIdx.idx2_lt1 i⟩

/-- The layer's array at the index with coordinates `(p, q)` is the layer's entry `(p, q)`. -/
theorem layerArr_ix2 (A : (⟨2, ![N, K]⟩ : Shape).Idx → EReal) (deg : (⟨2, ![N, 1]⟩ : Shape).Idx → EReal)
    (X : (⟨2, ![N, K]⟩ : Shape).Idx → EReal) (Wl Wr : (⟨2, ![K, C]⟩ : Shape).Idx → EReal) (b : Fin C → EReal)
    (p : Fin N) (q : Fin C) :
    layerArr A deg X Wl Wr b (ValueIdx.ix2 p q)
      = lin (fun p k => A (ValueIdx.ix2 p k)) (fun p => deg (ValueIdx.ix2 p (0 : Fin 1))) (fun p k => X (ValueIdx.ix2 p k))
          (fun k q => Wl (ValueIdx.ix2 k q)) (fun k q => Wr (ValueIdx.ix2 k q)) b p q := rfl

/-- An array clamped below at 0, entry by entry. -/
def reluArr {s : Shape} (v : s.Idx → EReal) : s.Idx → EReal := fun i => max (v i) zero

end Cert.Sage

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Payload.lean ====
/-
  What one block of 2000 rows computes, entry by entry.

  Both kernels do, on their block, the layer of Layer.lean: the block of neighbour sums divided row by row by the
  clamped degree, times `Wl` on the matrix unit from a zero accumulator; plus the block of the nodes' own rows times
  `Wr`; plus the bias row spread over the block's rows. The first kernel then takes the maximum with 0. Narrowing the
  operands to bf16 on the way into the matrix unit, and the result on the way out, is the identity on the extended
  reals, and a product on the matrix unit from zero is the plain sum over the shared axis.
-/
import proofs.«178976_j72060961292398_2_alg».proof.Proof.Gen.KernelIdeal.Skeleton
import proofs.«178976_j72060961292398_2_alg».proof.Proof.Layer
import proofs.«178976_j72060961292398_2_alg».proof.Proof.LibPlainDot
import proofs.«178976_j72060961292398_2_alg».proof.Proof.LibKeepdims
import Idealize.ShloMosaic.Lib.ValueLayout
import Idealize.ShloMosaic.Lib.Pipeline.Value

set_option maxRecDepth 16384

noncomputable section

open scoped BigOperators

namespace Cert.KernelIdeal.Block

open Cert.KernelIdeal Cert.KernelIdeal.Gen
open Idealize.ShloMosaic Idealize.ShloMosaic.ValueIdx

/-- A block of row sums divided by the clamped degree column, narrowed: at `(p, k)` the sum over the degree of row `p`. -/
theorem mean_apply {a b : Nat} (A : FVec Ideal ⟨2, ![a, b]⟩ .f32) (deg : FVec Ideal ⟨2, ![a, 1]⟩ .f32)
    (hA : (⟨2, ![a, b]⟩ : Shape).ShapeCasts ⟨2, ![a, b]⟩) (hd : (⟨2, ![a, 1]⟩ : Shape).ShapeCasts ⟨2, ![a, 1]⟩)
    (hb : (⟨2, ![a, 1]⟩ : Shape).Broadcasts ⟨2, ![a, b]⟩) (hlt : FTy.bf16.bits < FTy.f32.bits) (p : Fin a) (k : Fin b) :
    (truncf .bf16 (divf (shapeCast ⟨2, ![a, b]⟩ A hA)
        (broadcastTo ⟨2, ![a, b]⟩ (maximumf (shapeCast ⟨2, ![a, 1]⟩ deg hd)
          (broadcast ⟨2, ![a, 1]⟩ (FloatOps.ofBits (F := Ideal) .f32 0x3F800000#32))) hb)) hlt : FVec Ideal ⟨2, ![a, b]⟩ .bf16) (ix2 p k)
      = Ideal.div (A (ix2 p k)) (max (deg (ix2 p (0 : Fin 1))) Cert.Sage.one) := by
  show Ideal.div (shapeCast ⟨2, ![a, b]⟩ A hA (ix2 p k))
      (broadcastTo ⟨2, ![a, b]⟩ (maximumf (shapeCast ⟨2, ![a, 1]⟩ deg hd)
        (broadcast ⟨2, ![a, 1]⟩ (FloatOps.ofBits (F := Ideal) .f32 0x3F800000#32))) hb (ix2 p k)) = _
  rw [shapeCast_self, Cert.Lib.Keepdims.broadcastTo_a1_ab_apply]
  show Ideal.div (A (ix2 p k)) (max (shapeCast ⟨2, ![a, 1]⟩ deg hd (ix2 p (0 : Fin 1))) _) = _
  rw [shapeCast_self]
  rfl

/-- The bias row spread over the rows of a block: at `(p, q)` the row's entry `q`. -/
theorem bias_apply {a b : Nat} (v : FVec Ideal ⟨2, ![1, b]⟩ .f32) (hv : (⟨2, ![1, b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hv) hb (ix2 p q) = v (ix2 (0 : Fin 1) q) := by
  rw [broadcastTo_1b_ab_apply, shapeCast_self]

/-- THE FIRST KERNEL'S BLOCK at `(p, q)`: the layer's entry on the block's rows, clamped below at 0. -/
theorem first_apply (v0 : FVec Ideal S2000x64 .f32) (v2 : FVec Ideal S2000x1 .f32) (v9 : FVec Ideal S2000x64 .f32)
    (v11 v13 : FVec Ideal S64x128 .f32) (v18 : FVec Ideal S1x128 .f32) (p : Fin 2000) (q : Fin 128) :
    k0_pay1 (F := Ideal) v0 v2 v9 v11 v13 v18 (ix2 p q)
      = max (Cert.Sage.lin (fun p k => v0 (ix2 p k)) (fun p => v2 (ix2 p (0 : Fin 1))) (fun p k => v9 (ix2 p k))
          (fun k q => v11 (ix2 k q)) (fun k q => v13 (ix2 k q)) (fun q => v18 (ix2 (0 : Fin 1) q)) p q) Cert.Sage.zero := by
  unfold k0_pay1 Cert.Sage.lin
  refine congrArg₂ max (congrArg₂ (· + ·) (congrArg₂ (· + ·) ?_ ?_) ?_) rfl
  · refine (Cert.Lib.PlainDot.matmul_plain_zero_apply (M := 2000) (K := 64) (N := 128) none _ _ p q).trans ?_
    exact Finset.sum_congr rfl fun k _ => congrArg (· * v11 (ix2 k q)) (mean_apply v0 v2 _ _ _ _ p k)
  · exact Cert.Lib.PlainDot.matmul_plain_zero_apply (M := 2000) (K := 64) (N := 128) none _ _ p q
  · exact bias_apply v18 _ _ p q

/-- THE SECOND KERNEL'S BLOCK at `(p, q)`: the layer's entry on the block's rows. -/
theorem second_apply (v0 : FVec Ideal S2000x128 .f32) (v2 : FVec Ideal S2000x1 .f32) (v9 : FVec Ideal S2000x128 .bf16)
    (v11 v13 : FVec Ideal S128x64 .f32) (v18 : FVec Ideal S1x64 .f32) (p : Fin 2000) (q : Fin 64) :
    k1_pay1 (F := Ideal) v0 v2 v9 v11 v13 v18 (ix2 p q)
      = Cert.Sage.lin (fun p k => v0 (ix2 p k)) (fun p => v2 (ix2 p (0 : Fin 1))) (fun p k => v9 (ix2 p k))
          (fun k q => v11 (ix2 k q)) (fun k q => v13 (ix2 k q)) (fun q => v18 (ix2 (0 : Fin 1) q)) p q := by
  unfold k1_pay1 Cert.Sage.lin
  refine congrArg₂ (· + ·) (congrArg₂ (· + ·) ?_ ?_) ?_
  · refine (Cert.Lib.PlainDot.matmul_plain_zero_apply (M := 2000) (K := 128) (N := 64) none _ _ p q).trans ?_
    exact Finset.sum_congr rfl fun k _ => congrArg (· * v11 (ix2 k q)) (mean_apply v0 v2 _ _ _ _ p k)
  · refine (Cert.Lib.PlainDot.matmul_plain_zero_apply (M := 2000) (K := 128) (N := 64) none _ _ p q).trans ?_
    exact Finset.sum_congr rfl fun k _ => congrArg (· * v13 (ix2 k q)) (congrFun (shapeCast_self v9 _) (ix2 p k))
  · exact bias_apply v18 _ _ p q

end Cert.KernelIdeal.Block

end
-- ==== Proof.Blocks0.lean ====
/-
  The first kernel's output array: the hidden rows.

  The kernel runs over 25 grid points; point `t` reads rows `2000·t … 2000·t + 1999` of the neighbour sums, of the
  degree column and of the node features, the two weight matrices and the bias row whole, and writes back rows
  `2000·t … 2000·t + 1999` of its output. What it writes back is that block of ONE array — the layer of Layer.lean on
  the whole input arrays, clamped below at 0 — because an entry of the layer reads only its own row of the node arrays.
  The 25 blocks cover the 50000 rows, so after the last write-back the output array is that array. All of this holds for
  whatever the buffers contain when the kernel is entered (`V`).
-/
import proofs.«178976_j72060961292398_2_alg».proof.Proof.Gen.KernelIdeal.Frame
import proofs.«178976_j72060961292398_2_alg».proof.Proof.Payload

set_option maxRecDepth 16384

noncomputable section

namespace Cert.KernelIdeal.Hidden

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden rows as one array of the six arrays the kernel's windows read, as the kernel finds them. -/
def hidden (c : Dev nD) : S50000x128.Idx → EReal :=
  Cert.Sage.reluArr (Cert.Sage.layerArr (N := 50000) (K := 64) (C := 128)
    (V c main_v13 : S50000x64.Idx → EReal) (V c main_v17 : S50000x1.Idx → EReal) (V c main_arg0 : S50000x64.Idx → EReal)
    (V c main_arg2 : S64x128.Idx → EReal) (V c main_arg4 : S64x128.Idx → EReal)
    (fun q => (V c main_v18 : S1x128.Idx → EReal) (ix2 (0 : Fin 1) q)))

/-- Where each window's block sits at point `t`: the three node arrays and the output move one block of rows per point,
    the weights and the bias stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block of the neighbour sums is row `2000·t + p` of the array. -/
theorem rows0 (c : Dev nD) (t : Fin cfg0.N) (ht : t.val < 25) (p : Fin 2000) (k : Fin 64) :
    (iblk0 V c 0 t : FVec Ideal S2000x64 .f32) (ix2 p k)
      = (V c main_v13 : S50000x64.Idx → EReal) (ix2 (⟨t.val * 2000 + p.val, by omega⟩ : Fin 50000) k) := by
  obtain ⟨e00, e01, -⟩ := block_index t
  unfold iblk0
  rw [View.read_apply]
  show V c main_v13 _ = V c main_v13 _
  congr 1
  funext a; apply Fin.ext
  match a with
  | ⟨0, _⟩ => show win0_0.index t (0 : Fin 2) * 2000 + 1 * p.val = t.val * 2000 + p.val; rw [e00]; omega
  | ⟨1, _⟩ => show win0_0.index t (1 : Fin 2) * 64 + 1 * k.val = k.val; rw [e01]; omega

/-- Row `p` of point `t`'s block of the degree column is row `2000·t + p` of the column. -/
theorem rows1 (c : Dev nD) (t : Fin cfg0.N) (ht : t.val < 25) (p : Fin 2000) :
    (iblk0 V c 1 t : FVec Ideal S2000x1 .f32) (ix2 p (0 : Fin 1))
      = (V c main_v17 : S50000x1.Idx → EReal) (ix2 (⟨t.val * 2000 + p.val, by omega⟩ : Fin 50000) (0 : Fin 1)) := by
  obtain ⟨-, -, e10, e11, -⟩ := block_index t
  unfold iblk0
  rw [View.read_apply]
  show V c main_v17 _ = V c main_v17 _
  congr 1
  funext a; apply Fin.ext
  match a with
  | ⟨0, _⟩ => show win0_1.index t (0 : Fin 2) * 2000 + 1 * p.val = t.val * 2000 + p.val; rw [e10]; omega
  | ⟨1, _⟩ => show win0_1.index t (1 : Fin 2) * 1 + 1 * 0 = 0; rw [e11]

/-- Row `p` of point `t`'s block of the node features is row `2000·t + p` of the array. -/
theorem rows2 (c : Dev nD) (t : Fin cfg0.N) (ht : t.val < 25) (p : Fin 2000) (k : Fin 64) :
    (iblk0 V c 2 t : FVec Ideal S2000x64 .f32) (ix2 p k)
      = (V c main_arg0 : S50000x64.Idx → EReal) (ix2 (⟨t.val * 2000 + p.val, by omega⟩ : Fin 50000) k) := by
  obtain ⟨-, -, -, -, e20, e21, -⟩ := block_index t
  unfold iblk0
  rw [View.read_apply]
  show V c main_arg0 _ = V c main_arg0 _
  congr 1
  funext a; apply Fin.ext
  match a with
  | ⟨0, _⟩ => show win0_2.index t (0 : Fin 2) * 2000 + 1 * p.val = t.val * 2000 + p.val; rw [e20]; omega
  | ⟨1, _⟩ => show win0_2.index t (1 : Fin 2) * 64 + 1 * k.val = k.val; rw [e21]; omega

/-- The first weight matrix's block is the whole matrix at every point. -/
theorem whole3 (c : Dev nD) (t : Fin cfg0.N) (k : Fin 64) (q : Fin 128) :
    (iblk0 V c 3 t : FVec Ideal S64x128 .f32) (ix2 k q) = (V c main_arg2 : S64x128.Idx → EReal) (ix2 k q) := by
  obtain ⟨-, -, -, -, -, -, e30, e31, -⟩ := block_index t
  unfold iblk0
  rw [View.read_apply]
  show V c main_arg2 _ = V c main_arg2 _
  congr 1
  funext a; apply Fin.ext
  match a with
  | ⟨0, _⟩ => show win0_3.index t (0 : Fin 2) * 64 + 1 * k.val = k.val; rw [e30]; omega
  | ⟨1, _⟩ => show win0_3.index t (1 : Fin 2) * 128 + 1 * q.val = q.val; rw [e31]; omega

/-- The bias row's block is the whole row at every point. -/
theorem whole4 (c : Dev nD) (t : Fin cfg0.N) (q : Fin 128) :
    (iblk0 V c 4 t : FVec Ideal S1x128 .f32) (ix2 (0 : Fin 1) q) = (V c main_v18 : S1x128.Idx → EReal) (ix2 (0 : Fin 1) q) := by
  obtain ⟨-, -, -, -, -, -, -, -, e40, e41, -⟩ := block_index t
  unfold iblk0
  rw [View.read_apply]
  show V c main_v18 _ = V c main_v18 _
  congr 1
  funext a; apply Fin.ext
  match a with
  | ⟨0, _⟩ => show win0_4.index t (0 : Fin 2) * 1 + 1 * 0 = 0; rw [e40]
  | ⟨1, _⟩ => show win0_4.index t (1 : Fin 2) * 128 + 1 * q.val = q.val; rw [e41]; omega

/-- The second weight matrix's block is the whole matrix at every point. -/
theorem whole5 (c : Dev nD) (t : Fin cfg0.N) (k : Fin 64) (q : Fin 128) :
    (iblk0 V c 5 t : FVec Ideal S64x128 .f32) (ix2 k q) = (V c main_arg4 : S64x128.Idx → EReal) (ix2 k q) := by
  obtain ⟨-, -, -, -, -, -, -, -, -, -, e50, e51, -⟩ := block_index t
  unfold iblk0
  rw [View.read_apply]
  show V c main_arg4 _ = V c main_arg4 _
  congr 1
  funext a; apply Fin.ext
  match a with
  | ⟨0, _⟩ => show win0_5.index t (0 : Fin 2) * 64 + 1 * k.val = k.val; rw [e50]; omega
  | ⟨1, _⟩ => show win0_5.index t (1 : Fin 2) * 128 + 1 * q.val = q.val; rw [e51]; omega

/-- Entry `(p, q)` of point `t`'s output block sits at `(2000·t + p, q)` of the output array. -/
theorem out_emb (t : Fin cfg0.N) (ht : t.val < 25) (p : Fin 2000) (q : Fin 128) :
    ((cfg0.win 6).blk t).view.emb (ix2 p q) = (ix2 (⟨t.val * 2000 + p.val, by omega⟩ : Fin 50000) q : S50000x128.Idx) := by
  obtain ⟨-, -, -, -, -, -, -, -, -, -, -, -, e60, e61⟩ := block_index t
  funext a; apply Fin.ext
  match a with
  | ⟨0, _⟩ => show win0_6.index t (0 : Fin 2) * 2000 + 1 * p.val = t.val * 2000 + p.val; rw [e60]; omega
  | ⟨1, _⟩ => show win0_6.index t (1 : Fin 2) * 128 + 1 * q.val = q.val; rw [e61]; omega

/-- WHAT POINT `t` WRITES BACK is block `t` of the hidden rows. -/
theorem flushed_eq (c : Dev nD) (t : Fin cfg0.N) :
    (dat0 V c).flushed 6 t = ((cfg0.win 6).blk t).view.read (Elt Ideal) (hidden V c) := by
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S64x128) hz,
    View.ld_unit_zero (S := S1x128) hz]
  have ht : t.val < 25 := Nat.lt_of_lt_of_eq t.isLt N_0
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = hidden V c (((cfg0.win 6).blk t).view.emb (ix2 p q))
  rw [out_emb t ht p q]
  refine (Cert.KernelIdeal.Block.first_apply (iblk0 V c 0 t) (iblk0 V c 1 t) (iblk0 V c 2 t) (iblk0 V c 3 t) (iblk0 V c 5 t)
    (iblk0 V c 4 t) p q).trans ?_
  unfold hidden Cert.Sage.reluArr
  rw [Cert.Sage.layerArr_ix2]
  refine congrArg₂ max ?_ rfl
  have hWl : (fun (k : Fin 64) (q : Fin 128) => (iblk0 V c 3 t : FVec Ideal S64x128 .f32) (ix2 k q))
      = fun k q => (V c main_arg2 : S64x128.Idx → EReal) (ix2 k q) := funext fun k => funext fun q => whole3 V c t k q
  have hWr : (fun (k : Fin 64) (q : Fin 128) => (iblk0 V c 5 t : FVec Ideal S64x128 .f32) (ix2 k q))
      = fun k q => (V c main_arg4 : S64x128.Idx → EReal) (ix2 k q) := funext fun k => funext fun q => whole5 V c t k q
  have hb : (fun (q : Fin 128) => (iblk0 V c 4 t : FVec Ideal S1x128 .f32) (ix2 (0 : Fin 1) q))
      = fun q => (V c main_v18 : S1x128.Idx → EReal) (ix2 (0 : Fin 1) q) := funext fun q => whole4 V c t q
  rw [hWl, hWr, hb]
  exact Cert.Sage.lin_congr _ _ _ q (fun k => rows0 V c t ht p k) (rows1 V c t ht p) (fun k => rows2 V c t ht p k)

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v19).slice (win0_6.rect t)).set ↔ _
  rw [View.set_slice_whole, Rect.mem_set_unit]
  exact Iff.rfl

/-- Every row of the output array is in some point's block: row `r` in that of point `r / 2000`. -/
theorem cover (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  have hN : cfg0.N = 25 := N_0
  refine ⟨⟨(i 0).val / 2000, by rw [hN]; omega⟩, flush0_6 _, ?_⟩
  rw [mem_blk]
  obtain ⟨-, -, -, -, -, -, -, -, -, -, -, -, e60, e61⟩ := block_index ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e60]; show (i 0).val / 2000 * 2000 ≤ (i 0).val ∧ (i 0).val < (i 0).val / 2000 * 2000 + 2000; omega
  | ⟨1, _⟩ =>
    show win0_6.index _ (1 : Fin 2) * 128 ≤ (i 1).val ∧ (i 1).val < win0_6.index _ (1 : Fin 2) * 128 + 128
    rw [e61]; omega

/-- THE OUTPUT ARRAY after the kernel's 25 write-backs is the hidden rows. -/
theorem final (c : Dev nD) : (dat0 V c).arrAt 6 cfg0.N = hidden V c :=
  (dat0 V c).arrAt_eq_of_cover 6 (hidden V c) (fun t _ => flushed_eq V c t) cover

end Cert.KernelIdeal.Hidden

end
-- ==== Proof.Blocks1.lean ====
/-
  The second kernel's output array: the result rows.

  As the first kernel, over the hidden rows: point `t` reads rows `2000·t … 2000·t + 1999` of the hidden rows' neighbour
  sums, of the degree column and of the hidden rows themselves, the second layer's two weight matrices and bias row
  whole, and writes back rows `2000·t … 2000·t + 1999` of the result. What it writes back is that block of the layer
  of Layer.lean on the whole input arrays (no clamp this time), and the 25 blocks cover the 50000 rows. For whatever the
  buffers contain when the kernel is entered (`V`).
-/
import proofs.«178976_j72060961292398_2_alg».proof.Proof.Gen.KernelIdeal.Frame
import proofs.«178976_j72060961292398_2_alg».proof.Proof.Payload

set_option maxRecDepth 16384

noncomputable section

namespace Cert.KernelIdeal.Output

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The result rows as one array of the six arrays the kernel's windows read, as the kernel finds them. -/
def output (c : Dev nD) : S50000x64.Idx → EReal :=
  Cert.Sage.layerArr (N := 50000) (K := 128) (C := 64)
    (V c main_v30 : S50000x128.Idx → EReal) (V c main_v17 : S50000x1.Idx → EReal) (V c main_v19 : S50000x128.Idx → EReal)
    (V c main_arg5 : S128x64.Idx → EReal) (V c main_arg7 : S128x64.Idx → EReal)
    (fun q => (V c main_v31 : S1x64.Idx → EReal) (ix2 (0 : Fin 1) q))

/-- Where each window's block sits at point `t`: the three node arrays and the output move one block of rows per point,
    the weights and the bias stay. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block of the neighbour sums is row `2000·t + p` of the array. -/
theorem rows0 (c : Dev nD) (t : Fin cfg1.N) (ht : t.val < 25) (p : Fin 2000) (k : Fin 128) :
    (iblk1 V c 0 t : FVec Ideal S2000x128 .f32) (ix2 p k)
      = (V c main_v30 : S50000x128.Idx → EReal) (ix2 (⟨t.val * 2000 + p.val, by omega⟩ : Fin 50000) k) := by
  obtain ⟨e00, e01, -⟩ := block_index t
  unfold iblk1
  rw [View.read_apply]
  show V c main_v30 _ = V c main_v30 _
  congr 1
  funext a; apply Fin.ext
  match a with
  | ⟨0, _⟩ => show win1_0.index t (0 : Fin 2) * 2000 + 1 * p.val = t.val * 2000 + p.val; rw [e00]; omega
  | ⟨1, _⟩ => show win1_0.index t (1 : Fin 2) * 128 + 1 * k.val = k.val; rw [e01]; omega

/-- Row `p` of point `t`'s block of the degree column is row `2000·t + p` of the column. -/
theorem rows1 (c : Dev nD) (t : Fin cfg1.N) (ht : t.val < 25) (p : Fin 2000) :
    (iblk1 V c 1 t : FVec Ideal S2000x1 .f32) (ix2 p (0 : Fin 1))
      = (V c main_v17 : S50000x1.Idx → EReal) (ix2 (⟨t.val * 2000 + p.val, by omega⟩ : Fin 50000) (0 : Fin 1)) := by
  obtain ⟨-, -, e10, e11, -⟩ := block_index t
  unfold iblk1
  rw [View.read_apply]
  show V c main_v17 _ = V c main_v17 _
  congr 1
  funext a; apply Fin.ext
  match a with
  | ⟨0, _⟩ => show win1_1.index t (0 : Fin 2) * 2000 + 1 * p.val = t.val * 2000 + p.val; rw [e10]; omega
  | ⟨1, _⟩ => show win1_1.index t (1 : Fin 2) * 1 + 1 * 0 = 0; rw [e11]

/-- Row `p` of point `t`'s block of the hidden rows is row `2000·t + p` of the array. -/
theorem rows2 (c : Dev nD) (t : Fin cfg1.N) (ht : t.val < 25) (p : Fin 2000) (k : Fin 128) :
    (iblk1 V c 2 t : FVec Ideal S2000x128 .bf16) (ix2 p k)
      = (V c main_v19 : S50000x128.Idx → EReal) (ix2 (⟨t.val * 2000 + p.val, by omega⟩ : Fin 50000) k) := by
  obtain ⟨-, -, -, -, e20, e21, -⟩ := block_index t
  unfold iblk1
  rw [View.read_apply]
  show V c main_v19 _ = V c main_v19 _
  congr 1
  funext a; apply Fin.ext
  match a with
  | ⟨0, _⟩ => show win1_2.index t (0 : Fin 2) * 2000 + 1 * p.val = t.val * 2000 + p.val; rw [e20]; omega
  | ⟨1, _⟩ => show win1_2.index t (1 : Fin 2) * 128 + 1 * k.val = k.val; rw [e21]; omega

/-- The first weight matrix's block is the whole matrix at every point. -/
theorem whole3 (c : Dev nD) (t : Fin cfg1.N) (k : Fin 128) (q : Fin 64) :
    (iblk1 V c 3 t : FVec Ideal S128x64 .f32) (ix2 k q) = (V c main_arg5 : S128x64.Idx → EReal) (ix2 k q) := by
  obtain ⟨-, -, -, -, -, -, e30, e31, -⟩ := block_index t
  unfold iblk1
  rw [View.read_apply]
  show V c main_arg5 _ = V c main_arg5 _
  congr 1
  funext a; apply Fin.ext
  match a with
  | ⟨0, _⟩ => show win1_3.index t (0 : Fin 2) * 128 + 1 * k.val = k.val; rw [e30]; omega
  | ⟨1, _⟩ => show win1_3.index t (1 : Fin 2) * 64 + 1 * q.val = q.val; rw [e31]; omega

/-- The bias row's block is the whole row at every point. -/
theorem whole4 (c : Dev nD) (t : Fin cfg1.N) (q : Fin 64) :
    (iblk1 V c 4 t : FVec Ideal S1x64 .f32) (ix2 (0 : Fin 1) q) = (V c main_v31 : S1x64.Idx → EReal) (ix2 (0 : Fin 1) q) := by
  obtain ⟨-, -, -, -, -, -, -, -, e40, e41, -⟩ := block_index t
  unfold iblk1
  rw [View.read_apply]
  show V c main_v31 _ = V c main_v31 _
  congr 1
  funext a; apply Fin.ext
  match a with
  | ⟨0, _⟩ => show win1_4.index t (0 : Fin 2) * 1 + 1 * 0 = 0; rw [e40]
  | ⟨1, _⟩ => show win1_4.index t (1 : Fin 2) * 64 + 1 * q.val = q.val; rw [e41]; omega

/-- The second weight matrix's block is the whole matrix at every point. -/
theorem whole5 (c : Dev nD) (t : Fin cfg1.N) (k : Fin 128) (q : Fin 64) :
    (iblk1 V c 5 t : FVec Ideal S128x64 .f32) (ix2 k q) = (V c main_arg7 : S128x64.Idx → EReal) (ix2 k q) := by
  obtain ⟨-, -, -, -, -, -, -, -, -, -, e50, e51, -⟩ := block_index t
  unfold iblk1
  rw [View.read_apply]
  show V c main_arg7 _ = V c main_arg7 _
  congr 1
  funext a; apply Fin.ext
  match a with
  | ⟨0, _⟩ => show win1_5.index t (0 : Fin 2) * 128 + 1 * k.val = k.val; rw [e50]; omega
  | ⟨1, _⟩ => show win1_5.index t (1 : Fin 2) * 64 + 1 * q.val = q.val; rw [e51]; omega

/-- Entry `(p, q)` of point `t`'s output block sits at `(2000·t + p, q)` of the output array. -/
theorem out_emb (t : Fin cfg1.N) (ht : t.val < 25) (p : Fin 2000) (q : Fin 64) :
    ((cfg1.win 6).blk t).view.emb (ix2 p q) = (ix2 (⟨t.val * 2000 + p.val, by omega⟩ : Fin 50000) q : S50000x64.Idx) := by
  obtain ⟨-, -, -, -, -, -, -, -, -, -, -, -, e60, e61⟩ := block_index t
  funext a; apply Fin.ext
  match a with
  | ⟨0, _⟩ => show win1_6.index t (0 : Fin 2) * 2000 + 1 * p.val = t.val * 2000 + p.val; rw [e60]; omega
  | ⟨1, _⟩ => show win1_6.index t (1 : Fin 2) * 64 + 1 * q.val = q.val; rw [e61]; omega

/-- WHAT POINT `t` WRITES BACK is block `t` of the result rows. -/
theorem flushed_eq (c : Dev nD) (t : Fin cfg1.N) :
    (dat1 V c).flushed 6 t = ((cfg1.win 6).blk t).view.read (Elt Ideal) (output V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x64) hz,
    View.ld_unit_zero (S := S1x64) hz]
  have ht : t.val < 25 := Nat.lt_of_lt_of_eq t.isLt N_1
  funext j
  obtain ⟨p, q, rfl⟩ : ∃ (p : Fin 2000) (q : Fin 64), j = ix2 p q := ⟨j 0, j 1, eq_ix2 j⟩
  show k1_pay1 (iblk1 V c 0 t) (iblk1 V c 1 t) (iblk1 V c 2 t) (iblk1 V c 3 t) (iblk1 V c 5 t) (iblk1 V c 4 t) (ix2 p q)
    = output V c (((cfg1.win 6).blk t).view.emb (ix2 p q))
  rw [out_emb t ht p q]
  refine (Cert.KernelIdeal.Block.second_apply (iblk1 V c 0 t) (iblk1 V c 1 t) (iblk1 V c 2 t) (iblk1 V c 3 t) (iblk1 V c 5 t)
    (iblk1 V c 4 t) p q).trans ?_
  unfold output
  rw [Cert.Sage.layerArr_ix2]
  have hWl : (fun (k : Fin 128) (q : Fin 64) => (iblk1 V c 3 t : FVec Ideal S128x64 .f32) (ix2 k q))
      = fun k q => (V c main_arg5 : S128x64.Idx → EReal) (ix2 k q) := funext fun k => funext fun q => whole3 V c t k q
  have hWr : (fun (k : Fin 128) (q : Fin 64) => (iblk1 V c 5 t : FVec Ideal S128x64 .f32) (ix2 k q))
      = fun k q => (V c main_arg7 : S128x64.Idx → EReal) (ix2 k q) := funext fun k => funext fun q => whole5 V c t k q
  have hb : (fun (q : Fin 64) => (iblk1 V c 4 t : FVec Ideal S1x64 .f32) (ix2 (0 : Fin 1) q))
      = fun q => (V c main_v31 : S1x64.Idx → EReal) (ix2 (0 : Fin 1) q) := funext fun q => whole4 V c t q
  rw [hWl, hWr, hb]
  exact Cert.Sage.lin_congr _ _ _ q (fun k => rows0 V c t ht p k) (rows1 V c t ht p) (fun k => rows2 V c t ht p k)

/-- An index of the output array is in point `t`'s block iff each coordinate is in the block's range on its axis. -/
theorem mem_blk (t : Fin cfg1.N) (i : S50000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v32).slice (win1_6.rect t)).set ↔ _
  rw [View.set_slice_whole, Rect.mem_set_unit]
  exact Iff.rfl

/-- Every row of the output array is in some point's block: row `r` in that of point `r / 2000`. -/
theorem cover (i : S50000x64.Idx) : ∃ t : Fin cfg1.N, (cfg1.win 6).flush t = true ∧ i ∈ ((cfg1.win 6).blk t).view.set := by
  have hi0 : (i 0).val < 50000 := idx2_lt0 i
  have hi1 : (i 1).val < 64 := idx2_lt1 i
  have hN : cfg1.N = 25 := N_1
  refine ⟨⟨(i 0).val / 2000, by rw [hN]; omega⟩, flush1_6 _, ?_⟩
  rw [mem_blk]
  obtain ⟨-, -, -, -, -, -, -, -, -, -, -, -, e60, e61⟩ := block_index ⟨(i 0).val / 2000, by rw [hN]; omega⟩
  intro a
  match a with
  | ⟨0, _⟩ =>
    show win1_6.index _ (0 : Fin 2) * 2000 ≤ (i 0).val ∧ (i 0).val < win1_6.index _ (0 : Fin 2) * 2000 + 2000
    rw [e60]; show (i 0).val / 2000 * 2000 ≤ (i 0).val ∧ (i 0).val < (i 0).val / 2000 * 2000 + 2000; omega
  | ⟨1, _⟩ =>
    show win1_6.index _ (1 : Fin 2) * 64 ≤ (i 1).val ∧ (i 1).val < win1_6.index _ (1 : Fin 2) * 64 + 64
    rw [e61]; omega

/-- THE OUTPUT ARRAY after the kernel's 25 write-backs is the result rows. -/
theorem final (c : Dev nD) : (dat1 V c).arrAt 6 cfg1.N = output V c :=
  (dat1 V c).arrAt_eq_of_cover 6 (output V c) (fun t _ => flushed_eq V c t) cover

end Cert.KernelIdeal.Output

end
-- ==== Proof.KernelValue.lean ====
/-
  The idealized kernel's result as one function of its eight arguments.

  Following the buffers through @main's four segments: the first stretch of host operations leaves the first layer's
  neighbour sums, the degree column and the bias row; the first kernel leaves the hidden rows (Blocks0.lean) and keeps
  its inputs; the second stretch leaves the hidden rows' neighbour sums and the second bias row and touches nothing
  else; the second kernel leaves the result rows (Blocks1.lean). Put together, the result buffer after the run is the
  second layer's array of the first layer's clamped array.
-/
import proofs.«178976_j72060961292398_2_alg».proof.Proof.KernelRun
import proofs.«178976_j72060961292398_2_alg».proof.Proof.HostStretch
import proofs.«178976_j72060961292398_2_alg».proof.Proof.Blocks0
import proofs.«178976_j72060961292398_2_alg».proof.Proof.Blocks1

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)

/-- The hidden rows from the arguments: the first layer on the node features and their neighbour sums, clamped at 0. -/
def hiddenOf (x0 : (⟨S50000x64, .f32⟩ : BufTy).Contents (Elt Ideal)) (e : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) : S50000x128.Idx → EReal :=
  Cert.Sage.reluArr (Cert.Sage.layerArr (N := 50000) (K := 64) (C := 128)
    (HostSide.agg64 (HostSide.srcRow e) (HostSide.dstRow e) x0) (HostSide.degree (HostSide.dstRow e)) x0 x2 x4
    (fun q => (shapeCast S1x128 x3 shapeCasts_S128_S1x128 : S1x128.Idx → EReal) (ix2 (0 : Fin 1) q)))

/-- The result rows from the arguments: the second layer on the hidden rows and their neighbour sums. -/
def resultOf (x0 : (⟨S50000x64, .f32⟩ : BufTy).Contents (Elt Ideal)) (e : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal)) :
    S50000x64.Idx → EReal :=
  Cert.Sage.layerArr (N := 50000) (K := 128) (C := 64)
    (HostSide.agg128 (HostSide.srcRow e) (HostSide.dstRow e) (hiddenOf x0 e x2 x3 x4)) (HostSide.degree (HostSide.dstRow e))
    (hiddenOf x0 e x2 x3 x4) x5 x7
    (fun q => (shapeCast S1x64 x6 shapeCasts_S64_S1x64 : S1x64.Idx → EReal) (ix2 (0 : Fin 1) q))

variable (m : (ℓ : Loc nD τ sig) → Buf (Elt Ideal) ℓ) (ρ : Dev nD → PrngReg)

/-! ## When the first kernel is entered -/

theorem V1_v13 (c : Dev nD) : V1 m ρ c main_v13
    = HostSide.agg64 (HostSide.srcRow (m ((c : Thread nD τ).loc main_arg1))) (HostSide.dstRow (m ((c : Thread nD τ).loc main_arg1)))
        (m ((c : Thread nD τ).loc main_arg0)) := HostSide.first_v13 (W0 m ρ c)
theorem V1_v17 (c : Dev nD) : V1 m ρ c main_v17 = HostSide.degree (HostSide.dstRow (m ((c : Thread nD τ).loc main_arg1))) :=
  HostSide.first_v17 (W0 m ρ c)
theorem V1_v18 (c : Dev nD) : V1 m ρ c main_v18 = shapeCast S1x128 (m ((c : Thread nD τ).loc main_arg3)) shapeCasts_S128_S1x128 :=
  HostSide.first_v18 (W0 m ρ c)
theorem V1_arg0 (c : Dev nD) : V1 m ρ c main_arg0 = m ((c : Thread nD τ).loc main_arg0) := HostSide.first_arg0 (W0 m ρ c)
theorem V1_arg2 (c : Dev nD) : V1 m ρ c main_arg2 = m ((c : Thread nD τ).loc main_arg2) := HostSide.first_arg2 (W0 m ρ c)
theorem V1_arg4 (c : Dev nD) : V1 m ρ c main_arg4 = m ((c : Thread nD τ).loc main_arg4) := HostSide.first_arg4 (W0 m ρ c)

/-! ## When the first kernel is left -/

/-- The first kernel's output array holds the hidden rows of the arguments. -/
theorem W2_v19 (c : Dev nD) : W2 m ρ c (Proc.devRef .tc main_v19)
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ?_
  rw [Hidden.final (V1 m ρ) c]
  unfold Hidden.hidden hiddenOf
  rw [V1_v13, V1_v17, V1_v18, V1_arg0, V1_arg2, V1_arg4]
theorem W2_v1 (c : Dev nD) : W2 m ρ c (Proc.devRef .tc main_v1) = HostSide.srcRow (m ((c : Thread nD τ).loc main_arg1)) :=
  (W2_of_ne m ρ c main_v1 (by decide)).trans (HostSide.first_v1 (W0 m ρ c))
theorem W2_v3 (c : Dev nD) : W2 m ρ c (Proc.devRef .tc main_v3) = HostSide.dstRow (m ((c : Thread nD τ).loc main_arg1)) :=
  (W2_of_ne m ρ c main_v3 (by decide)).trans (HostSide.first_v3 (W0 m ρ c))
theorem W2_v17 (c : Dev nD) : W2 m ρ c (Proc.devRef .tc main_v17) = HostSide.degree (HostSide.dstRow (m ((c : Thread nD τ).loc main_arg1))) :=
  ((W2_arr m ρ c 1).trans (((dat0 (V1 m ρ) c).arrAt_in 1 rfl _).trans (A_eq0 (V1 m ρ) c 1))).trans (V1_v17 m ρ c)
theorem W2_arg5 (c : Dev nD) : W2 m ρ c (Proc.devRef .tc main_arg5) = m ((c : Thread nD τ).loc main_arg5) :=
  (W2_of_ne m ρ c main_arg5 (by decide)).trans (HostSide.first_arg5 (W0 m ρ c))
theorem W2_arg6 (c : Dev nD) : W2 m ρ c (Proc.devRef .tc main_arg6) = m ((c : Thread nD τ).loc main_arg6) :=
  (W2_of_ne m ρ c main_arg6 (by decide)).trans (HostSide.first_arg6 (W0 m ρ c))
theorem W2_arg7 (c : Dev nD) : W2 m ρ c (Proc.devRef .tc main_arg7) = m ((c : Thread nD τ).loc main_arg7) :=
  (W2_of_ne m ρ c main_arg7 (by decide)).trans (HostSide.first_arg7 (W0 m ρ c))

/-! ## When the second kernel is entered -/

theorem V3_v30 (c : Dev nD) : V3 m ρ c main_v30
    = HostSide.agg128 (HostSide.srcRow (m ((c : Thread nD τ).loc main_arg1))) (HostSide.dstRow (m ((c : Thread nD τ).loc main_arg1)))
        (hiddenOf (m ((c : Thread nD τ).loc main_arg0)) (m ((c : Thread nD τ).loc main_arg1)) (m ((c : Thread nD τ).loc main_arg2))
          (m ((c : Thread nD τ).loc main_arg3)) (m ((c : Thread nD τ).loc main_arg4))) := by
  refine (HostSide.second_v30 (W2 m ρ c)).trans ?_
  rw [W2_v1, W2_v3, W2_v19]
theorem V3_v17 (c : Dev nD) : V3 m ρ c main_v17 = HostSide.degree (HostSide.dstRow (m ((c : Thread nD τ).loc main_arg1))) :=
  (HostSide.second_v17 (W2 m ρ c)).trans (W2_v17 m ρ c)
theorem V3_v19 (c : Dev nD) : V3 m ρ c main_v19
    = hiddenOf (m ((c : Thread nD τ).loc main_arg0)) (m ((c : Thread nD τ).loc main_arg1)) (m ((c : Thread nD τ).loc main_arg2))
        (m ((c : Thread nD τ).loc main_arg3)) (m ((c : Thread nD τ).loc main_arg4)) :=
  (HostSide.second_v19 (W2 m ρ c)).trans (W2_v19 m ρ c)
theorem V3_v31 (c : Dev nD) : V3 m ρ c main_v31 = shapeCast S1x64 (m ((c : Thread nD τ).loc main_arg6)) shapeCasts_S64_S1x64 := by
  refine (HostSide.second_v31 (W2 m ρ c)).trans ?_
  rw [W2_arg6]
theorem V3_arg5 (c : Dev nD) : V3 m ρ c main_arg5 = m ((c : Thread nD τ).loc main_arg5) :=
  (HostSide.second_arg5 (W2 m ρ c)).trans (W2_arg5 m ρ c)
theorem V3_arg7 (c : Dev nD) : V3 m ρ c main_arg7 = m ((c : Thread nD τ).loc main_arg7) :=
  (HostSide.second_arg7 (W2 m ρ c)).trans (W2_arg7 m ρ c)

/-! ## After the run -/

/-- The result buffer after the run is the result rows of the arguments. -/
theorem W4_v32 (c : Dev nD) : W4 m ρ c (Proc.devRef .tc main_v32)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ?_
  rw [Output.final (V3 m ρ) c]
  unfold Output.output resultOf
  rw [V3_v30, V3_v17, V3_v19, V3_v31, V3_arg5, V3_arg7]

/-- THE KERNEL'S RUN, READ: every weakly fair execution terminates with the result buffer at the result rows of the
    arguments, and the arguments as launched. -/
theorem run_value : θ_run defs (onTc (τ := τ) (main (F := Ideal))) ⟨m, fun _ => 0, ρ⟩ (fun r => ∀ c : Dev nD,
      r.2.mem ((c.tc : Thread nD τ).loc main_v32)
        = resultOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_v32 m ρ c), (h c).2⟩) (run (F := Ideal) m ρ)

end Cert.KernelIdeal.Result

end
-- ==== Proof.RefValue.lean ====
/-
  The reference's result as the same two layers.

  The reference computes, for each layer, the neighbour sums and degrees by the same gather and accumulation as the
  kernel's host side, divides, multiplies by `Wl`, adds the bias, and only then adds the product of the nodes' own rows
  with `Wr`: the layer of Layer.lean with the bias added first, which is the same entry (`Sage.bias_first`). Read entry
  by entry — the layout operations through the generated one-operation lemmas, the two products as plain sums over
  the shared axis — its hidden array is the layer's array clamped at 0 and its result the layer's array of the hidden one.
-/
import proofs.«178976_j72060961292398_2_alg».proof.Proof.Gen.ReferenceIdeal.Read
import proofs.«178976_j72060961292398_2_alg».proof.Proof.Layer
import proofs.«178976_j72060961292398_2_alg».proof.Proof.LibPlainDot

set_option maxRecDepth 16384

noncomputable section

open scoped BigOperators

namespace Cert.ReferenceIdeal.Layers

open Cert.ReferenceIdeal Cert.ReferenceIdeal.Read
open Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S64x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))

/-! ## The first layer, operation by operation, at `(p, q)` -/

/-- The degree column spread over 64 lanes reads, at `(p, k)`, the column at `p`. -/
theorem spread1 (p : Fin 50000) (k : Fin 64) :
    val_main_v20 (F := Ideal) x1 (ix2 p k) = max (val_main_v17 (F := Ideal) x1 (ix2 p (0 : Fin 1))) Cert.Sage.one := by
  have e : idx_main_v20 (ix2 p k) = ix2 p (0 : Fin 1) :=
    funext fun a => Fin.ext (by match a with | ⟨0, _⟩ => rfl | ⟨1, _⟩ => rfl)
  refine (val_main_v20_apply x1 (ix2 p k)).trans ?_
  rw [e]
  refine (val_main_v19_apply x1 (ix2 p (0 : Fin 1))).trans ?_
  exact congrArg (max _) ((val_main_v18_apply (F := Ideal) (ix2 p (0 : Fin 1))).trans rfl)

/-- The mean of the neighbours' rows at `(p, k)`. -/
theorem mean1 (p : Fin 50000) (k : Fin 64) :
    val_main_v21 (F := Ideal) x0 x1 (ix2 p k)
      = Ideal.div (val_main_v13 (F := Ideal) x0 x1 (ix2 p k)) (max (val_main_v17 (F := Ideal) x1 (ix2 p (0 : Fin 1))) Cert.Sage.one) :=
  (val_main_v21_apply x0 x1 (ix2 p k)).trans (congrArg (Ideal.div _) (spread1 x1 p k))

/-- The first product at `(p, q)`: the sum over the 64 features of mean times weight. -/
theorem left1 (p : Fin 50000) (q : Fin 128) :
    val_main_v22 (F := Ideal) x0 x1 x2 (ix2 p q)
      = ∑ k : Fin 64, Ideal.div (val_main_v13 (F := Ideal) x0 x1 (ix2 p k))
          (max (val_main_v17 (F := Ideal) x1 (ix2 p (0 : Fin 1))) Cert.Sage.one) * x2 (ix2 k q) := by
  unfold val_main_v22
  refine (Cert.Lib.PlainDot.dotGeneral_plain_apply (M := 50000) (K := 64) (N := 128) none .single _ _ p q).trans ?_
  exact Finset.sum_congr rfl fun k _ => congrArg (· * x2 (ix2 k q)) (mean1 x0 x1 p k)

/-- The second product at `(p, q)`. -/
theorem right1 (p : Fin 50000) (q : Fin 128) :
    val_main_v26 (F := Ideal) x0 x4 (ix2 p q) = ∑ k : Fin 64, x0 (ix2 p k) * x4 (ix2 k q) := by
  unfold val_main_v26
  exact Cert.Lib.PlainDot.dotGeneral_plain_apply (M := 50000) (K := 64) (N := 128) none .single _ _ p q

/-- The bias spread over the rows reads, at `(p, q)`, the bias at `q`. -/
theorem bias1 (p : Fin 50000) (q : Fin 128) : val_main_v24 (F := Ideal) x3 (ix2 p q) = x3 (ix1 q) := by
  have e : idx_main_v23 (idx_main_v24 (ix2 p q)) = ix1 q := funext fun a => Fin.ext (by match a with | ⟨0, _⟩ => rfl)
  refine (val_main_v24_apply x3 (ix2 p q)).trans ((val_main_v23_apply x3 _).trans ?_)
  rw [e]

/-- The reference's hidden array is the first layer's array clamped at 0. -/
theorem hidden_eq :
    val_main_v28 (F := Ideal) x0 x1 x2 x3 x4
      = Cert.Sage.reluArr (Cert.Sage.layerArr (N := 50000) (K := 64) (C := 128) (val_main_v13 (F := Ideal) x0 x1)
          (val_main_v17 (F := Ideal) x1) x0 x2 x4 (fun q => x3 (ix1 q))) := by
  funext i
  obtain ⟨p, q, rfl⟩ : ∃ (p : Fin 50000) (q : Fin 128), i = ix2 p q := ⟨i 0, i 1, eq_ix2 i⟩
  unfold Cert.Sage.reluArr
  rw [Cert.Sage.layerArr_ix2]
  refine (val_main_v28_apply x0 x1 x2 x3 x4 (ix2 p q)).trans ?_
  refine congrArg₂ max ?_ ((val_main_call0_v0_apply (F := Ideal) (ix2 p q)).trans rfl)
  refine Eq.trans ?_ (Cert.Sage.bias_first _ _ _ _ _ _ p q)
  refine (val_main_v27_apply x0 x1 x2 x3 x4 (ix2 p q)).trans ?_
  refine congrArg₂ (· + ·) ?_ (right1 x0 x4 p q)
  refine (val_main_v25_apply x0 x1 x2 x3 (ix2 p q)).trans ?_
  exact congrArg₂ (· + ·) (left1 x0 x1 x2 p q) (bias1 x3 p q)

/-! ## The second layer, operation by operation, at `(p, q)` -/

theorem spread2 (p : Fin 50000) (k : Fin 128) :
    val_main_v45 (F := Ideal) x1 (ix2 p k) = max (val_main_v42 (F := Ideal) x1 (ix2 p (0 : Fin 1))) Cert.Sage.one := by
  have e : idx_main_v45 (ix2 p k) = ix2 p (0 : Fin 1) :=
    funext fun a => Fin.ext (by match a with | ⟨0, _⟩ => rfl | ⟨1, _⟩ => rfl)
  refine (val_main_v45_apply x1 (ix2 p k)).trans ?_
  rw [e]
  refine (val_main_v44_apply x1 (ix2 p (0 : Fin 1))).trans ?_
  exact congrArg (max _) ((val_main_v43_apply (F := Ideal) (ix2 p (0 : Fin 1))).trans rfl)

theorem mean2 (p : Fin 50000) (k : Fin 128) :
    val_main_v46 (F := Ideal) x0 x1 x2 x3 x4 (ix2 p k)
      = Ideal.div (val_main_v38 (F := Ideal) x0 x1 x2 x3 x4 (ix2 p k))
          (max (val_main_v42 (F := Ideal) x1 (ix2 p (0 : Fin 1))) Cert.Sage.one) :=
  (val_main_v46_apply x0 x1 x2 x3 x4 (ix2 p k)).trans (congrArg (Ideal.div _) (spread2 x1 p k))

theorem left2 (p : Fin 50000) (q : Fin 64) :
    val_main_v47 (F := Ideal) x0 x1 x2 x3 x4 x5 (ix2 p q)
      = ∑ k : Fin 128, Ideal.div (val_main_v38 (F := Ideal) x0 x1 x2 x3 x4 (ix2 p k))
          (max (val_main_v42 (F := Ideal) x1 (ix2 p (0 : Fin 1))) Cert.Sage.one) * x5 (ix2 k q) := by
  unfold val_main_v47
  refine (Cert.Lib.PlainDot.dotGeneral_plain_apply (M := 50000) (K := 128) (N := 64) none .single _ _ p q).trans ?_
  exact Finset.sum_congr rfl fun k _ => congrArg (· * x5 (ix2 k q)) (mean2 x0 x1 x2 x3 x4 p k)

theorem right2 (p : Fin 50000) (q : Fin 64) :
    val_main_v51 (F := Ideal) x0 x1 x2 x3 x4 x7 (ix2 p q)
      = ∑ k : Fin 128, val_main_v28 (F := Ideal) x0 x1 x2 x3 x4 (ix2 p k) * x7 (ix2 k q) := by
  unfold val_main_v51
  exact Cert.Lib.PlainDot.dotGeneral_plain_apply (M := 50000) (K := 128) (N := 64) none .single _ _ p q

theorem bias2 (p : Fin 50000) (q : Fin 64) : val_main_v49 (F := Ideal) x6 (ix2 p q) = x6 (ix1 q) := by
  have e : idx_main_v48 (idx_main_v49 (ix2 p q)) = ix1 q := funext fun a => Fin.ext (by match a with | ⟨0, _⟩ => rfl)
  refine (val_main_v49_apply x6 (ix2 p q)).trans ((val_main_v48_apply x6 _).trans ?_)
  rw [e]

/-- The reference's result is the second layer's array, of the hidden array's neighbour sums and of the hidden array. -/
theorem result_eq :
    val_main_v52 (F := Ideal) x0 x1 x2 x3 x4 x5 x6 x7
      = Cert.Sage.layerArr (N := 50000) (K := 128) (C := 64) (val_main_v38 (F := Ideal) x0 x1 x2 x3 x4)
          (val_main_v42 (F := Ideal) x1) (val_main_v28 (F := Ideal) x0 x1 x2 x3 x4) x5 x7 (fun q => x6 (ix1 q)) := by
  funext i
  obtain ⟨p, q, rfl⟩ : ∃ (p : Fin 50000) (q : Fin 64), i = ix2 p q := ⟨i 0, i 1, eq_ix2 i⟩
  rw [Cert.Sage.layerArr_ix2]
  refine Eq.trans ?_ (Cert.Sage.bias_first _ _ _ _ _ _ p q)
  refine (val_main_v52_apply x0 x1 x2 x3 x4 x5 x6 x7 (ix2 p q)).trans ?_
  refine congrArg₂ (· + ·) ?_ (right2 x0 x1 x2 x3 x4 x7 p q)
  refine (val_main_v50_apply x0 x1 x2 x3 x4 x5 x6 (ix2 p q)).trans ?_
  exact congrArg₂ (· + ·) (left2 x0 x1 x2 x3 x4 x5 p q) (bias2 x6 p q)

end Cert.ReferenceIdeal.Layers

end
-- ==== Proof.Bridge.lean ====
/-
  The two programs compute one function.

  The reference's host operations that build the neighbour sums and the degree column are, operation for operation,
  the kernel program's (HostStretch.lean): the same slices of the edge list, the same wrap of negative source numbers,
  the same gather and the same accumulation into a zero table; only the hidden rows pass through a widening on the
  kernel's side, which is the identity on the extended reals. With RefValue.lean (the reference's two layers are the
  layer of Layer.lean) this makes the reference's result the kernel's `resultOf` of the same arguments.
-/
import proofs.«178976_j72060961292398_2_alg».proof.Proof.KernelValue
import proofs.«178976_j72060961292398_2_alg».proof.Proof.RefValue
import Idealize.ShloMosaic.Lib.ValueLayout

set_option maxRecDepth 16384

noncomputable section

namespace Cert.Bridge

open Idealize.ShloMosaic Idealize.ShloMosaic.ValueIdx
open Cert.ReferenceIdeal.Read
open Cert.KernelIdeal.HostSide Cert.KernelIdeal.Result

variable (x0 : (⟨Cert.ReferenceIdeal.S50000x64, .f32⟩ : BufTy).Contents (Elt Ideal))
  (x1 : (⟨Cert.ReferenceIdeal.S2x800000, .i32⟩ : BufTy).Contents (Elt Ideal))
  (x2 : (⟨Cert.ReferenceIdeal.S64x128, .f32⟩ : BufTy).Contents (Elt Ideal)) (x3 : (⟨Cert.ReferenceIdeal.S128, .f32⟩ : BufTy).Contents (Elt Ideal))
  (x4 : (⟨Cert.ReferenceIdeal.S64x128, .f32⟩ : BufTy).Contents (Elt Ideal)) (x5 : (⟨Cert.ReferenceIdeal.S128x64, .f32⟩ : BufTy).Contents (Elt Ideal))
  (x6 : (⟨Cert.ReferenceIdeal.S64, .f32⟩ : BufTy).Contents (Elt Ideal)) (x7 : (⟨Cert.ReferenceIdeal.S128x64, .f32⟩ : BufTy).Contents (Elt Ideal))

/-- The reference's first neighbour sums are the kernel program's. -/
theorem sums1 : val_main_v13 (F := Ideal) x0 x1 = agg64 (F := Ideal) (srcRow x1) (dstRow x1) x0 := rfl
/-- The reference's degree column (computed once per layer) is the kernel program's. -/
theorem degree1 : val_main_v17 (F := Ideal) x1 = degree (F := Ideal) (dstRow x1) := rfl
theorem degree2 : val_main_v42 (F := Ideal) x1 = degree (F := Ideal) (dstRow x1) := rfl
/-- The reference's second neighbour sums are the kernel program's, of the same hidden rows. -/
theorem sums2 : val_main_v38 (F := Ideal) x0 x1 x2 x3 x4
    = agg128 (F := Ideal) (srcRow x1) (dstRow x1) (val_main_v28 (F := Ideal) x0 x1 x2 x3 x4) := rfl

/-- A bias laid out as a row reads, at `(0, q)`, the bias at `q`. -/
theorem biasRow1 : (fun q : Fin 128 => (shapeCast Cert.KernelIdeal.S1x128 x3 Cert.KernelIdeal.Gen.shapeCasts_S128_S1x128 : Cert.KernelIdeal.S1x128.Idx → EReal) (ix2 (0 : Fin 1) q))
    = fun q => x3 (ix1 q) := funext fun q => shapeCast_a_1a_apply x3 _ 0 q
theorem biasRow2 : (fun q : Fin 64 => (shapeCast Cert.KernelIdeal.S1x64 x6 Cert.KernelIdeal.Gen.shapeCasts_S64_S1x64 : Cert.KernelIdeal.S1x64.Idx → EReal) (ix2 (0 : Fin 1) q))
    = fun q => x6 (ix1 q) := funext fun q => shapeCast_a_1a_apply x6 _ 0 q

/-- The reference's hidden array is the kernel's hidden rows. -/
theorem hidden : val_main_v28 (F := Ideal) x0 x1 x2 x3 x4 = hiddenOf x0 x1 x2 x3 x4 := by
  rw [Cert.ReferenceIdeal.Layers.hidden_eq, sums1, degree1]
  unfold hiddenOf
  rw [biasRow1]

/-- THE REFERENCE'S RESULT is the kernel's result rows of the same arguments. -/
theorem result : val_main_v52 (F := Ideal) x0 x1 x2 x3 x4 x5 x6 x7 = resultOf x0 x1 x2 x3 x4 x5 x6 x7 := by
  rw [Cert.ReferenceIdeal.Layers.result_eq, sums2, degree2, hidden]
  unfold resultOf
  rw [biasRow2]

end Cert.Bridge

end
-- ==== Proof.lean ====
/-
  A two-layer mean-aggregation graph network on 50000 nodes and 800000 edges: the kernel program against its reference,
  on the extended reals.

  Both programs gather the source nodes' rows along the edges, add them up per destination node and count each node's
  incoming edges, on the host; a layer then divides the sums by the count (at least 1), multiplies by `Wl`, adds the
  node's own row times `Wr` and the bias, and the first layer is clamped below at 0. The kernel program does each
  layer's dense part in a kernel over 25 blocks of 2000 rows, rounding operands to bf16 on the way into the matrix unit
  and storing the hidden rows in bf16 — none of which changes a value on the extended reals — and adds the bias last
  where the reference adds it before the second product. An entry of a layer depends only on its own row of the node
  arrays, so the blocks are blocks of one whole-array function (Blocks0.lean, Blocks1.lean), and addition on the
  extended reals is commutative and associative, so the two orders of the three summands agree (Layer.lean). No
  finiteness of the inputs is used.

  The frames of the two kernel programs are the generated frame certificates; the reference's is its generated run
  with the result dropped; the idealization rewrote nothing, so `preserves` is `True`.
-/
import proofs.«178976_j72060961292398_2_alg».proof.Defs
import proofs.«178976_j72060961292398_2_alg».proof.Proof.Gen.Kernel
import proofs.«178976_j72060961292398_2_alg».proof.Proof.Gen.Kernel.Skeleton
import proofs.«178976_j72060961292398_2_alg».proof.Proof.Gen.Kernel.Launch
import proofs.«178976_j72060961292398_2_alg».proof.Proof.Gen.Kernel.Points
import proofs.«178976_j72060961292398_2_alg».proof.Proof.Gen.Kernel.Frame
import proofs.«178976_j72060961292398_2_alg».proof.Proof.Gen.KernelIdeal
import proofs.«178976_j72060961292398_2_alg».proof.Proof.Gen.KernelIdeal.Skeleton
import proofs.«178976_j72060961292398_2_alg».proof.Proof.Gen.KernelIdeal.Launch
import proofs.«178976_j72060961292398_2_alg».proof.Proof.Gen.KernelIdeal.Points
import proofs.«178976_j72060961292398_2_alg».proof.Proof.Gen.KernelIdeal.Frame
import proofs.«178976_j72060961292398_2_alg».proof.Proof.Gen.ReferenceIdeal
import proofs.«178976_j72060961292398_2_alg».proof.Proof.Gen.ReferenceIdeal.Run
import proofs.«178976_j72060961292398_2_alg».proof.Proof.Gen.ReferenceIdeal.Read
import proofs.«178976_j72060961292398_2_alg».proof.Proof.Gen.Pre_finite_inputs
import proofs.«178976_j72060961292398_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result rows `resultOf` of the (agreeing) arguments: the kernel program by its run read
    through the four segments, the reference by its generated run, its two layers read entry by entry. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v52_eq, Cert.Bridge.result, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
